-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x4096 : Shape := ⟨2, ![2048, 4096]⟩
abbrev S1024x4096 : Shape := ⟨2, ![1024, 4096]⟩
abbrev S4096x4096 : Shape := ⟨2, ![4096, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S1024x4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S2048x1024 .f32) (main_arg1 : FVec F S2048x4096 .f32) (main_arg2 : FVec F S2048x4096 .f32) (main_arg3 : FVec F S1024x4096 .f32) (main_arg4 : FVec F S4096x4096 .f32) (main_arg5 : FVec F S1024x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Kernel.lean ====
abbrev S2048x1024 : Shape := ⟨2, ![2048, 1024]⟩
abbrev S2048x4096 : Shape := ⟨2, ![2048, 4096]⟩
abbrev S1024x4096 : Shape := ⟨2, ![1024, 4096]⟩
abbrev S4096x4096 : Shape := ⟨2, ![4096, 4096]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 13
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S1024x4096, .f32⟩
  | .hbm, ⟨4, _⟩ => ⟨S4096x4096, .f32⟩
  | .hbm, ⟨5, _⟩ => ⟨S1024x4096, .f32⟩
  | .hbm, ⟨6, _⟩ => ⟨S2048x1024, .bf16⟩
  | .hbm, ⟨7, _⟩ => ⟨S1024x4096, .bf16⟩
  | .hbm, ⟨8, _⟩ => ⟨S1024x4096, .bf16⟩
  | .hbm, ⟨9, _⟩ => ⟨S4096x4096, .bf16⟩
  | .hbm, ⟨10, _⟩ => ⟨S2048x4096, .bf16⟩
  | .hbm, ⟨11, _⟩ => ⟨S2048x4096, .f32⟩
  | .hbm, ⟨12, _⟩ => ⟨S2048x4096, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .bf16 = 32 ∨ (Rect.block (s := S1024x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x4096.size a
  hwx0_2 : ∀ i : grid0.Coords, EltTy.bits .bf16 = 32 ∨ (Rect.block (s := S1024x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x4096.size a
  hwx0_4 : ∀ i : grid0.Coords, EltTy.bits .bf16 = 32 ∨ (Rect.block (s := S2048x4096) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S2048x4096.size a
  hwx0_5 : ∀ i : grid0.Coords, EltTy.bits .f32 = 32 ∨ (Rect.block (s := S2048x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S2048x4096.size a
  hwx0_6 : ∀ i : grid0.Coords, EltTy.bits .f32 = 32 ∨ (Rect.block (s := S2048x4096) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S2048x4096.size a
  hwx0_7 : ∀ i : grid0.Coords, EltTy.bits .f32 = 32 ∨ (Rect.block (s := S2048x4096) S512x512.size (cc0_transform_7 i) (hinb0_7 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2048x1024 : Shape := ⟨2, ![2048, 1024]⟩
abbrev S2048x4096 : Shape := ⟨2, ![2048, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S1024x4096, .f32⟩
  | .hbm, ⟨4, _⟩ => ⟨S4096x4096, .f32⟩
  | .hbm, ⟨5, _⟩ => ⟨S1024x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S_, .f32⟩
  | .hbm, ⟨28, _⟩ => ⟨S2048x4096, .f32⟩
  | .hbm, ⟨29, _⟩ => ⟨S2048x4096, .i1⟩
  | .hbm, ⟨30, _⟩ => ⟨S_, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  dot_S2048x1024_S1024x4096_S2048x4096_1_0_0_1_n_n_wf : DotDims.WF S2048x1024 S1024x4096 S2048x4096 [1] [0] [0] [1] [] []
  dot_S2048x4096_S4096x4096_S2048x4096_1_0_0_1_n_n_wf : DotDims.WF S2048x4096 S4096x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.LibPrefixSum.lean ====
/-
  Prefix sums over an initial segment of the naturals, in any additive commutative monoid.

  A sum of the terms f 0, …, f (a + b − 1) is the sum of the first a of them plus the b terms that follow; so the
  sum of the first (k + 1) · q terms is the sum of the first k · q plus block k, the q terms f (k · q + j), j < q.
  This is the step of an accumulation that walks a long sum block by block: after block k the accumulator holds the
  prefix sum up to (k + 1) · q, and after the last block the whole sum, which is also the sum over Fin n.
  General: nothing here depends on a particular program.
-/
import Mathlib.Algebra.BigOperators.Fin
import Mathlib.Algebra.BigOperators.Group.Finset.Basic

open scoped BigOperators

namespace LibPrefixSum

variable {M : Type*} [AddCommMonoid M]

/-- The first a + b terms are the first a plus the b after them. -/
theorem prefix_add (f : ℕ → M) (a b : ℕ) :
    ∑ l ∈ Finset.range (a + b), f l = ∑ l ∈ Finset.range a, f l + ∑ j : Fin b, f (a + j.val) := by
  rw [Finset.sum_range_add]
  exact congrArg _ (Finset.sum_range fun x => f (a + x))

/-- The first (k + 1) · q terms are the first k · q plus block k. -/
theorem prefix_block (f : ℕ → M) (k q : ℕ) :
    ∑ l ∈ Finset.range ((k + 1) * q), f l = ∑ l ∈ Finset.range (k * q), f l + ∑ j : Fin q, f (k * q + j.val) := by
  rw [Nat.succ_mul, prefix_add]

/-- The first block alone: the first q terms, from zero. -/
theorem prefix_first (f : ℕ → M) (q : ℕ) :
    ∑ l ∈ Finset.range ((0 + 1) * q), f l = 0 + ∑ j : Fin q, f (0 * q + j.val) := by
  rw [prefix_block, Nat.zero_mul, Finset.range_zero, Finset.sum_empty]

/-- A prefix sum of n terms is the sum over Fin n. -/
theorem prefix_all (f : ℕ → M) (n : ℕ) : ∑ l ∈ Finset.range n, f l = ∑ k : Fin n, f k.val :=
  Finset.sum_range f

end LibPrefixSum
-- ==== Proof.Spec.lean ====
/-
  A gated leaky reservoir step, entry by entry, on the extended reals.

  Inputs: x [2048,1024], the state s [2048,4096], and three weight matrices wi [1024,4096], wr [4096,4096], wg [1024,4096].
  With u = x·wi + s·wr (two matrix products, entry (p,q) the sum over the contraction index of row p times column q)
  and the gate g = logistic (x·wg), the new state is

      s' (p,q) = (a · s (p,q) + b · tanh (u (p,q))) · g (p,q),

  a and b the single-precision numbers nearest 9/10 and 1/10, and the spike output is 1 where s' > 1/2 and 0 elsewhere.
  This module states that function once, over literal shapes, and reads one row-times-column sum as a prefix sum over
  the naturals, the form in which a sum accumulated block by block along the contraction index is compared with it.
-/
import Idealize.ShloMosaic.Lib.ValueIdx
import Idealize.ShloMosaic.PureOps.Ideal.Laws
import proofs.«101820_j37572373905508_2_alg».proof.Proof.LibProductAt
import proofs.«101820_j37572373905508_2_alg».proof.Proof.LibPrefixSum

noncomputable section

namespace Cert.Reservoir

open Idealize.ShloMosaic Cert.ProductAt
open scoped BigOperators

/-- An [a,b] array of extended reals. -/
abbrev Arr (a b : Nat) : Type := (⟨2, ![a, b]⟩ : Shape).Idx → EReal

/-- Term l of row p of L times column q of R, as a function of a natural number: zero beyond the contraction length. -/
def term {A K B : Nat} (L : Arr A K) (R : Arr K B) (p : Nat) (hp : p < A) (q : Nat) (hq : q < B) (l : ℕ) : EReal :=
  if h : l < K then L (at2 p hp l h) * R (at2 l h q hq) else 0

/-- Row p of L times column q of R: the sum over the contraction index. -/
def rowCol {A K B : Nat} (L : Arr A K) (R : Arr K B) (p : Nat) (hp : p < A) (q : Nat) (hq : q < B) : EReal :=
  ∑ l : Fin K, L (at2 p hp l.val l.isLt) * R (at2 l.val l.isLt q hq)

/-- The same sum as the prefix of K terms. -/
theorem rowCol_eq_prefix {A K B : Nat} (L : Arr A K) (R : Arr K B) (p : Nat) (hp : p < A) (q : Nat) (hq : q < B) :
    rowCol L R p hp q hq = ∑ l ∈ Finset.range K, term L R p hp q hq l := by
  rw [LibPrefixSum.prefix_all]
  unfold rowCol
  refine Finset.sum_congr rfl fun l _ => ?_
  unfold term
  rw [dif_pos l.isLt]

/-- The share of the old state that is kept: the single-precision number nearest 9/10. -/
abbrev keep : EReal := Ideal.ofBits .f32 0x3F666666#32
/-- The leak rate: the single-precision number nearest 1/10. -/
abbrev leak : EReal := Ideal.ofBits .f32 0x3DCCCCCD#32

/-- One cell's update from its old state s, its drive u and its gate's logit g. -/
def cell (s u g : EReal) : EReal := (keep * s + leak * Ideal.tanh u) * Ideal.logistic g

/-- The threshold at 1/2: one above it, zero elsewhere. -/
def spike (v : EReal) : EReal :=
  Scalar.select (Ideal.cmp .ogt v (Ideal.ofBits .f32 0x3F000000#32)) (Ideal.ofBits .f32 0x3F800000#32) (Ideal.ofBits .f32 0x00000000#32)

/-- The new state, entry by entry. -/
def newState (x : Arr 2048 1024) (s : Arr 2048 4096) (wi : Arr 1024 4096) (wr : Arr 4096 4096) (wg : Arr 1024 4096) :
    Arr 2048 4096 := fun j =>
  cell (s j)
    (rowCol x wi (j 0).val (ValueIdx.idx2_lt0 j) (j 1).val (ValueIdx.idx2_lt1 j)
      + rowCol s wr (j 0).val (ValueIdx.idx2_lt0 j) (j 1).val (ValueIdx.idx2_lt1 j))
    (rowCol x wg (j 0).val (ValueIdx.idx2_lt0 j) (j 1).val (ValueIdx.idx2_lt1 j))

/-- The spike output, entry by entry. -/
def spikes (x : Arr 2048 1024) (s : Arr 2048 4096) (wi : Arr 1024 4096) (wr : Arr 4096 4096) (wg : Arr 1024 4096) :
    Arr 2048 4096 := fun j => spike (newState x s wi wr wg j)

end Cert.Reservoir

end
-- ==== Proof.LibSmallF32.lean ====
import Idealize.ShloMosaic.PureOps.Ideal

/-!
# The single-precision patterns of the integers 1 … 9

At the exact instance a float literal denotes the dyadic rational its IEEE pattern spells. For the nine small
integers that multiply an angle (`m·φ`, `m = 1 … 9`) that rational is the integer itself.
-/

noncomputable section

namespace Cert.LibSmallF32

open Idealize.ShloMosaic

theorem f32_1 : Ideal.ofBits .f32 0x3F800000#32 = ((1 : ℝ) : EReal) := by
  simp [Ideal.ofBits, Ideal.ieee, -EReal.coe_mul]; norm_num
theorem f32_2 : Ideal.ofBits .f32 0x40000000#32 = ((2 : ℝ) : EReal) := by
  simp [Ideal.ofBits, Ideal.ieee, -EReal.coe_mul]; norm_num
theorem f32_3 : Ideal.ofBits .f32 0x40400000#32 = ((3 : ℝ) : EReal) := by
  simp [Ideal.ofBits, Ideal.ieee, -EReal.coe_mul]; norm_num
theorem f32_4 : Ideal.ofBits .f32 0x40800000#32 = ((4 : ℝ) : EReal) := by
  simp [Ideal.ofBits, Ideal.ieee, -EReal.coe_mul]; norm_num
theorem f32_5 : Ideal.ofBits .f32 0x40A00000#32 = ((5 : ℝ) : EReal) := by
  simp [Ideal.ofBits, Ideal.ieee, -EReal.coe_mul]; norm_num
theorem f32_6 : Ideal.ofBits .f32 0x40C00000#32 = ((6 : ℝ) : EReal) := by
  simp [Ideal.ofBits, Ideal.ieee, -EReal.coe_mul]; norm_num
theorem f32_7 : Ideal.ofBits .f32 0x40E00000#32 = ((7 : ℝ) : EReal) := by
  simp [Ideal.ofBits, Ideal.ieee, -EReal.coe_mul]; norm_num
theorem f32_8 : Ideal.ofBits .f32 0x41000000#32 = ((8 : ℝ) : EReal) := by
  simp [Ideal.ofBits, Ideal.ieee, -EReal.coe_mul]; norm_num
theorem f32_9 : Ideal.ofBits .f32 0x41100000#32 = ((9 : ℝ) : EReal) := by
  simp [Ideal.ofBits, Ideal.ieee, -EReal.coe_mul]; norm_num

end Cert.LibSmallF32

end
-- ==== Proof.RefIsSpec.lean ====
/-
  The reference computes the gated leaky reservoir step of the specification.

  Read one operation at a time, its new-state result at an index (p,q) is
  (a · s(p,q) + b · tanh (Σ_k x(p,k)·wi(k,q) + Σ_k s(p,k)·wr(k,q))) · (1 / (1 + exp (−Σ_k x(p,k)·wg(k,q)))),
  and the quotient is the logistic function of the gate's logit, the literal 1.0 being the real number one; its spike
  result is the threshold of that value.
-/
import proofs.«101820_j37572373905508_2_alg».proof.Proof.Gen.ReferenceIdeal.Read
import proofs.«101820_j37572373905508_2_alg».proof.Proof.Spec
import proofs.«101820_j37572373905508_2_alg».proof.Proof.LibSmallF32

noncomputable section

namespace Cert.Reservoir.Ref

open Idealize.ShloMosaic Cert.ProductAt Cert.Reservoir
open Cert.ReferenceIdeal Cert.ReferenceIdeal.Read

/-- The single-precision pattern of 1.0 is the extended real one. -/
theorem one_f32 : Ideal.ofBits .f32 0x3F800000#32 = (1 : EReal) := by
  rw [Cert.LibSmallF32.f32_1, EReal.coe_one]

/-- The reference's new-state result is the specification's, entry by entry. -/
theorem newState_eq (x0 : Arr 2048 1024) (x2 : Arr 2048 4096) (x3 : Arr 1024 4096) (x4 : Arr 4096 4096) (x5 : Arr 1024 4096) :
    val_main_v16 (F := Ideal) x0 x2 x3 x4 x5 = newState x0 x2 x3 x4 x5 := by
  funext i
  have l0 : ∀ k, lidx_main_v0 i k = at2 (i 0).val (ValueIdx.idx2_lt0 i) k.val k.isLt :=
    fun k => funext fun a => by match a with | ⟨0, _⟩ => rfl | ⟨1, _⟩ => rfl
  have r0 : ∀ k, ridx_main_v0 i k = at2 k.val k.isLt (i 1).val (ValueIdx.idx2_lt1 i) :=
    fun k => funext fun a => by match a with | ⟨0, _⟩ => rfl | ⟨1, _⟩ => rfl
  have l1 : ∀ k, lidx_main_v1 i k = at2 (i 0).val (ValueIdx.idx2_lt0 i) k.val k.isLt :=
    fun k => funext fun a => by match a with | ⟨0, _⟩ => rfl | ⟨1, _⟩ => rfl
  have r1 : ∀ k, ridx_main_v1 i k = at2 k.val k.isLt (i 1).val (ValueIdx.idx2_lt1 i) :=
    fun k => funext fun a => by match a with | ⟨0, _⟩ => rfl | ⟨1, _⟩ => rfl
  have l2 : ∀ k, lidx_main_v2 i k = at2 (i 0).val (ValueIdx.idx2_lt0 i) k.val k.isLt :=
    fun k => funext fun a => by match a with | ⟨0, _⟩ => rfl | ⟨1, _⟩ => rfl
  have r2 : ∀ k, ridx_main_v2 i k = at2 k.val k.isLt (i 1).val (ValueIdx.idx2_lt1 i) :=
    fun k => funext fun a => by match a with | ⟨0, _⟩ => rfl | ⟨1, _⟩ => rfl
  rw [val_main_v16_apply, val_main_v15_apply, val_main_v10_apply, val_main_v9_apply, val_main_cst_1_apply,
    val_main_v14_apply, val_main_v13_apply, val_main_cst_2_apply, val_main_v12_apply, val_main_v11_apply,
    val_main_v0_apply, val_main_v1_apply, val_main_v8_apply, val_main_v7_apply, val_main_cst_0_apply,
    val_main_v6_apply, val_main_v5_apply, val_main_cst_apply, val_main_v4_apply, val_main_v3_apply, val_main_v2_apply]
  simp only [l0, r0, l1, r1, l2, r2]
  show (Ideal.ofBits .f32 0x3F666666#32 * x2 i + Ideal.ofBits .f32 0x3DCCCCCD#32 * Ideal.tanh (_ + _))
      * Ideal.div (Ideal.ofBits .f32 0x3F800000#32) (Ideal.ofBits .f32 0x3F800000#32 + Ideal.exp (- _)) = _
  rw [one_f32]
  rfl

/-- The reference's spike result is the specification's. -/
theorem spikes_eq (x0 : Arr 2048 1024) (x2 : Arr 2048 4096) (x3 : Arr 1024 4096) (x4 : Arr 4096 4096) (x5 : Arr 1024 4096) :
    val_main_v21 (F := Ideal) x0 x2 x3 x4 x5 = spikes x0 x2 x3 x4 x5 := by
  funext i
  rw [val_main_v21_apply, val_main_v18_apply, val_main_v17_apply, val_main_cst_3_apply, val_main_v19_apply,
    val_main_cst_4_apply, val_main_v20_apply, val_main_cst_5_apply, newState_eq]
  rfl

end Cert.Reservoir.Ref

end
-- ==== Proof.Pieces.lean ====
/-
  What each control case of the kernel body leaves in the three carried scratch buffers and in the two output blocks,
  as values of the blocks it loads.

  The body runs in one of three cases along the innermost grid axis (the contraction blocks k = 0 … 7):
    first block (k = 0): the accumulator is stored as zero and then as zero + S·W, the input contribution x·Wi and the
      gate logistic (x·Wg) are stored;
    middle blocks: the accumulator becomes accumulator + S·W, the other two scratch buffers are left alone;
    last block (k = 7): the accumulator becomes accumulator + S·W, and the new state and the spikes are stored from the
      state block, the input contribution, the accumulator just stored and the gate.
  Each store covers its whole buffer, so what a buffer holds afterwards is the payload of the last store into it,
  and a load of a whole buffer is the buffer's contents.
-/
import proofs.«101820_j37572373905508_2_alg».proof.Proof.Gen.KernelIdeal.Frame
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- A middle block: the accumulator becomes what it held plus the product of the state block and the weight block. -/
theorem acc_B (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (hc0 : ¬cond0_0 i) (hc1 : ¬cond0_1 i)
    (x0 : Vec F S512x1024 .bf16) (x1 : Vec F S1024x512 .bf16) (x2 : Vec F S1024x512 .bf16) (x3 : Vec F S512x512 .bf16) (x4 : Vec F S512x512 .bf16) (x5 : Vec F S512x512 .f32) (xs0 : Vec F S512x512 .f32) (xs1 : Vec F S512x512 .f32) (xs2 : Vec F S512x512 .f32) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay4 xs0 x4 x3 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  rw [View.canon_unit_zero hz]
  simp only [View.readAt_eq_ld, harg3.read_unread, harg4.read_unread, harg5.read_unread, harg6.read_unread, harg7.read_unread, harg8.read_unread, harg11.read_unread, harg12.read_unread, harg13.read_unread, View.ld_unit_zero (S := S512x512) hz, View.ld_unit_zero (S := S512x1024) hz, View.ld_unit_zero (S := S1024x512) hz]

/-- The last block: the same step of the accumulator. -/
theorem acc_C (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (hc0 : ¬cond0_0 i) (hc1 : cond0_1 i)
    (x0 : Vec F S512x1024 .bf16) (x1 : Vec F S1024x512 .bf16) (x2 : Vec F S1024x512 .bf16) (x3 : Vec F S512x512 .bf16) (x4 : Vec F S512x512 .bf16) (x5 : Vec F S512x512 .f32) (xs0 : Vec F S512x512 .f32) (xs1 : Vec F S512x512 .f32) (xs2 : Vec F S512x512 .f32) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay4 xs0 x4 x3 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz]
  simp only [View.readAt_eq_ld, harg3.read_unread, harg4.read_unread, harg5.read_unread, harg6.read_unread, harg7.read_unread, harg8.read_unread, harg11.read_unread, harg12.read_unread, harg13.read_unread, View.ld_unit_zero (S := S512x512) hz, View.ld_unit_zero (S := S512x1024) hz, View.ld_unit_zero (S := S1024x512) hz]

/-- The first block: the accumulator is stored as zero, read back, and left at zero plus the product. -/
theorem acc_A (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (hc0 : cond0_0 i) (hc1 : ¬cond0_1 i)
    (x0 : Vec F S512x1024 .bf16) (x1 : Vec F S1024x512 .bf16) (x2 : Vec F S1024x512 .bf16) (x3 : Vec F S512x512 .bf16) (x4 : Vec F S512x512 .bf16) (x5 : Vec F S512x512 .f32) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 = k0_pay4 (k0_pay1 (F := F)) x4 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg11.read_unread, harg12.read_unread, harg13.read_unread, View.ld_unit_zero (S := S512x512) hz, View.ld_unit_zero (S := S512x1024) hz, View.ld_unit_zero (S := S1024x512) hz]

/-- The first block stores the input contribution: the product of the input block and its weight block. -/
theorem inp_A (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (hc0 : cond0_0 i) (hc1 : ¬cond0_1 i)
    (x0 : Vec F S512x1024 .bf16) (x1 : Vec F S1024x512 .bf16) (x2 : Vec F S1024x512 .bf16) (x3 : Vec F S512x512 .bf16) (x4 : Vec F S512x512 .bf16) (x5 : Vec F S512x512 .f32) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 = k0_pay2 x0 x1 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  rw [View.canon_unit_zero hz]
  simp only [View.readAt_eq_ld, harg3.read_unread, harg4.read_unread, harg5.read_unread, harg6.read_unread, harg7.read_unread, harg8.read_unread, harg11.read_unread, harg12.read_unread, harg13.read_unread, View.ld_unit_zero (S := S512x512) hz, View.ld_unit_zero (S := S512x1024) hz, View.ld_unit_zero (S := S1024x512) hz]

/-- The first block stores the gate: the logistic function of the product of the input block and the gate's weight block. -/
theorem gate_A (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (hc0 : cond0_0 i) (hc1 : ¬cond0_1 i)
    (x0 : Vec F S512x1024 .bf16) (x1 : Vec F S1024x512 .bf16) (x2 : Vec F S1024x512 .bf16) (x3 : Vec F S512x512 .bf16) (x4 : Vec F S512x512 .bf16) (x5 : Vec F S512x512 .f32) :
    sout0_A_2 c i arg3 harg3 arg4 harg4 arg5 harg5 arg6 harg6 arg7 harg7 arg8 harg8 arg9 harg9 arg10 harg10 arg11 harg11 arg12 harg12 arg13 harg13 hc0 hc1 x0 x1 x2 x3 x4 x5 = k0_pay3 x0 x2 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  rw [View.canon_unit_zero hz]
  simp only [View.readAt_eq_ld, harg3.read_unread, harg4.read_unread, harg5.read_unread, harg6.read_unread, harg7.read_unread, harg8.read_unread, harg11.read_unread, harg12.read_unread, harg13.read_unread, View.ld_unit_zero (S := S512x512) hz, View.ld_unit_zero (S := S512x1024) hz, View.ld_unit_zero (S := S1024x512) hz]

/-- The last block stores the new state from the state block, the input contribution, the accumulator it has just
    stored and the gate. -/
theorem state_C (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (hc0 : ¬cond0_0 i) (hc1 : cond0_1 i)
    (x0 : Vec F S512x1024 .bf16) (x1 : Vec F S1024x512 .bf16) (x2 : Vec F S1024x512 .bf16) (x3 : Vec F S512x512 .bf16) (x4 : Vec F S512x512 .bf16) (x5 : Vec F S512x512 .f32) (xs0 : Vec F S512x512 .f32) (xs1 : Vec F S512x512 .f32) (xs2 : Vec F S512x512 .f32) :
    out0_C_7 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay5 x5 xs1 (k0_pay4 xs0 x4 x3) xs2 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz, View.readCov_unit_zero (S := S512x512) _ hz]
  simp only [View.readAt_eq_ld, harg3.read_unread, harg4.read_unread, harg5.read_unread, harg6.read_unread, harg7.read_unread, harg8.read_unread, harg11.read_unread, harg12.read_unread, harg13.read_unread, View.ld_unit_zero (S := S512x512) hz, View.ld_unit_zero (S := S512x1024) hz, View.ld_unit_zero (S := S1024x512) hz]

/-- The last block stores the spikes: the threshold of that new state. -/
theorem spikes_C (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (hc0 : ¬cond0_0 i) (hc1 : cond0_1 i)
    (x0 : Vec F S512x1024 .bf16) (x1 : Vec F S1024x512 .bf16) (x2 : Vec F S1024x512 .bf16) (x3 : Vec F S512x512 .bf16) (x4 : Vec F S512x512 .bf16) (x5 : Vec F S512x512 .f32) (xs0 : Vec F S512x512 .f32) (xs1 : Vec F S512x512 .f32) (xs2 : Vec F S512x512 .f32) :
    out0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay6 x5 xs1 (k0_pay4 xs0 x4 x3) xs2 := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz, View.readCov_unit_zero (S := S512x512) _ hz]
  simp only [View.readAt_eq_ld, harg3.read_unread, harg4.read_unread, harg5.read_unread, harg6.read_unread, harg7.read_unread, harg8.read_unread, harg11.read_unread, harg12.read_unread, harg13.read_unread, View.ld_unit_zero (S := S512x512) hz, View.ld_unit_zero (S := S512x1024) hz, View.ld_unit_zero (S := S1024x512) hz]

end Cert.KernelIdeal.Found

end
-- ==== Proof.Payload.lean ====
/-
  The kernel body's stored values read at an entry, on the extended reals.

  At an entry (r,c) of a [512,512] block:
    the input contribution is the sum over l < 1024 of x(r,l)·w(l,c), a matrix product into a zero accumulator;
    the gate is the logistic function of the same sum against the gate's weight block;
    the accumulator's step is what it held at (r,c) plus the sum over l < 512 of s(r,l)·w(l,c);
    the zero block is zero;
    the new state is (a·s + b·tanh (inp + acc))·gate and the spike its threshold, both entry by entry.
-/
import proofs.«101820_j37572373905508_2_alg».proof.Proof.Gen.KernelIdeal.Skeleton
import proofs.«101820_j37572373905508_2_alg».proof.Proof.Spec
import Idealize.ShloMosaic.Lib.Pipeline.Value
import Idealize.ShloMosaic.Lib.ValueIdx
import Idealize.ShloMosaic.PureOps.Ideal.Laws

noncomputable section

namespace Cert.Reservoir.Body

open Idealize.ShloMosaic Cert.ProductAt Cert.Reservoir
open Cert.KernelIdeal Cert.KernelIdeal.Gen

/-- The [512,1024]×[1024,512] product keeps the left factor's row … -/
theorem wide_l0 (j : S512x512.Idx) (q : dot_S512x1024_S1024x512_S512x512_1_0_0_1_n_n.contr.Idx) : (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- … and the right factor's column. -/
theorem wide_r1 (j : S512x512.Idx) (q : dot_S512x1024_S1024x512_S512x512_1_0_0_1_n_n.contr.Idx) : (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl
/-- The [512,512]×[512,512] product keeps the left factor's row … -/
theorem sq_l0 (j : S512x512.Idx) (q : dot_S512x512_S512x512_S512x512_1_0_0_1_n_n.contr.Idx) : (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- … and the right factor's column. -/
theorem sq_r1 (j : S512x512.Idx) (q : dot_S512x512_S512x512_S512x512_1_0_0_1_n_n.contr.Idx) : (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The input contribution at an entry: row r of the input block times column c of the weight block. -/
theorem inp_at (x : Vec Ideal S512x1024 .bf16) (w : Vec Ideal S1024x512 .bf16) (j : S512x512.Idx) :
    k0_pay2 (F := Ideal) x w j
      = rowCol (A := 512) (K := 1024) (B := 512) x w (j 0).val (ValueIdx.idx2_lt0 j) (j 1).val (ValueIdx.idx2_lt1 j) := by
  unfold k0_pay2
  simp only [shapeCast_self]
  exact (Ideal.matmul_constant_zero_apply (φ₁ := .bf16) (φ₂ := .bf16) dot_S512x1024_S1024x512_S512x512_1_0_0_1_n_n none x w j).trans
    (product_sum_eq (φ₁ := .bf16) (φ₂ := .bf16) dot_S512x1024_S1024x512_S512x512_1_0_0_1_n_n rfl rfl rfl rfl wide_l0 wide_r1 x w j)

/-- The gate at an entry: the logistic function of row r of the input block times column c of the gate's weight block. -/
theorem gate_at (x : Vec Ideal S512x1024 .bf16) (w : Vec Ideal S1024x512 .bf16) (j : S512x512.Idx) :
    k0_pay3 (F := Ideal) x w j
      = Ideal.logistic (rowCol (A := 512) (K := 1024) (B := 512) x w (j 0).val (ValueIdx.idx2_lt0 j) (j 1).val (ValueIdx.idx2_lt1 j)) := by
  unfold k0_pay3
  simp only [shapeCast_self]
  exact congrArg Ideal.logistic ((Ideal.matmul_constant_zero_apply (φ₁ := .bf16) (φ₂ := .bf16) dot_S512x1024_S1024x512_S512x512_1_0_0_1_n_n none x w j).trans
    (product_sum_eq (φ₁ := .bf16) (φ₂ := .bf16) dot_S512x1024_S1024x512_S512x512_1_0_0_1_n_n rfl rfl rfl rfl wide_l0 wide_r1 x w j))

/-- The accumulator's step at an entry: what it held plus row r of the state block times column c of the weight block. -/
theorem acc_at (a : Vec Ideal S512x512 .f32) (s : Vec Ideal S512x512 .bf16) (w : Vec Ideal S512x512 .bf16) (j : S512x512.Idx) :
    k0_pay4 (F := Ideal) a s w j
      = a j + rowCol (A := 512) (K := 512) (B := 512) s w (j 0).val (ValueIdx.idx2_lt0 j) (j 1).val (ValueIdx.idx2_lt1 j) := by
  unfold k0_pay4
  simp only [shapeCast_self]
  exact congrArg (a j + ·) ((Ideal.matmul_constant_zero_apply (φ₁ := .bf16) (φ₂ := .bf16) dot_S512x512_S512x512_S512x512_1_0_0_1_n_n none s w j).trans
    (product_sum_eq (φ₁ := .bf16) (φ₂ := .bf16) dot_S512x512_S512x512_S512x512_1_0_0_1_n_n rfl rfl rfl rfl sq_l0 sq_r1 s w j))

/-- The zero block is zero at every entry. -/
theorem zero_at (j : S512x512.Idx) : k0_pay1 (F := Ideal) j = 0 := by
  unfold k0_pay1
  simp only [shapeCast_self]
  exact Ideal.ofBits_zero_f32

/-- The new state at an entry, from the state, the input contribution, the accumulator and the gate there. -/
theorem state_at (s inp acc g : Vec Ideal S512x512 .f32) (j : S512x512.Idx) :
    k0_pay5 (F := Ideal) s inp acc g j = (keep * s j + leak * Ideal.tanh (inp j + acc j)) * g j := rfl

/-- The spike at an entry: the threshold of the new state there. -/
theorem spike_at (s inp acc g : Vec Ideal S512x512 .f32) (j : S512x512.Idx) :
    k0_pay6 (F := Ideal) s inp acc g j = spike (k0_pay5 (F := Ideal) s inp acc g j) := rfl

end Cert.Reservoir.Body

end
-- ==== Proof.Blocks.lean ====
/-
  The blocks the kernel's windows hold at a grid point, read at an entry of the argument arrays.

  The grid is 4 × 8 × 8: position t has row tile t / 64, column tile (t / 8) % 8 and contraction block t % 8. All blocks are
  aligned tiles: entry y of a window's block is the entry of its array at block index × block size + y on each axis.
  The five arrays the matrix unit reads are the arguments narrowed to bf16, which on the extended reals is the identity.
-/
import proofs.«101820_j37572373905508_2_alg».proof.Proof.Gen.KernelIdeal.Frame
import proofs.«101820_j37572373905508_2_alg».proof.Proof.Spec
import Idealize.ShloMosaic.Lib.Pipeline.Value
import Idealize.ShloMosaic.Lib.StableHlo.Run

noncomputable section

namespace Cert.Reservoir.Blocks

open Idealize.ShloMosaic Idealize.ShloMosaic.TcCoe Idealize.SL.Sem Cert.ProductAt Cert.Reservoir
open Cert.KernelIdeal Cert.KernelIdeal.Gen

variable (m : (ℓ : Loc nD τ sig) → Buf (Elt Ideal) ℓ)

/-- The five argument arrays, as arrays of extended reals. -/
abbrev argX (c : Dev nD) : Arr 2048 1024 := m ((c : Thread nD τ).loc main_arg0)
abbrev argS (c : Dev nD) : Arr 2048 4096 := m ((c : Thread nD τ).loc main_arg2)
abbrev argWi (c : Dev nD) : Arr 1024 4096 := m ((c : Thread nD τ).loc main_arg3)
abbrev argWr (c : Dev nD) : Arr 4096 4096 := m ((c : Thread nD τ).loc main_arg4)
abbrev argWg (c : Dev nD) : Arr 1024 4096 := m ((c : Thread nD τ).loc main_arg5)

/-- Each window's block indices at position t, decided over the grid. -/
theorem idx_facts : ∀ t : Fin cfg0.N,
    win0_0.index t (0 : Fin 2) = t.val / 64 ∧ win0_0.index t (1 : Fin 2) = 0
    ∧ win0_1.index t (0 : Fin 2) = 0 ∧ win0_1.index t (1 : Fin 2) = t.val / 8 % 8
    ∧ win0_2.index t (0 : Fin 2) = 0 ∧ win0_2.index t (1 : Fin 2) = t.val / 8 % 8
    ∧ win0_3.index t (0 : Fin 2) = t.val % 8 ∧ win0_3.index t (1 : Fin 2) = t.val / 8 % 8
    ∧ win0_4.index t (0 : Fin 2) = t.val / 64 ∧ win0_4.index t (1 : Fin 2) = t.val % 8
    ∧ win0_5.index t (0 : Fin 2) = t.val / 64 ∧ win0_5.index t (1 : Fin 2) = t.val / 8 % 8
    ∧ win0_6.index t (0 : Fin 2) = t.val / 64 ∧ win0_6.index t (1 : Fin 2) = t.val / 8 % 8
    ∧ win0_7.index t (0 : Fin 2) = t.val / 64 ∧ win0_7.index t (1 : Fin 2) = t.val / 8 % 8 :=
  (by decide +kernel : ∀ t : Fin grid0.N, _)

/-- The narrowed copies the region finds are the arguments themselves. -/
theorem V_x (c : Dev nD) : (V m c main_v0 : S2048x1024.Idx → EReal) = argX m c := by
  dsimp only [V, hostOps0]; after_results; rfl
theorem V_wi (c : Dev nD) : (V m c main_v1 : S1024x4096.Idx → EReal) = argWi m c := by
  dsimp only [V, hostOps0]; after_results; rfl
theorem V_wg (c : Dev nD) : (V m c main_v2 : S1024x4096.Idx → EReal) = argWg m c := by
  dsimp only [V, hostOps0]; after_results; rfl
theorem V_wr (c : Dev nD) : (V m c main_v3 : S4096x4096.Idx → EReal) = argWr m c := by
  dsimp only [V, hostOps0]; after_results; rfl
theorem V_s (c : Dev nD) : (V m c main_v4 : S2048x4096.Idx → EReal) = argS m c := by
  dsimp only [V, hostOps0]; after_results; rfl

/-- The input block: the rows of tile t / 64, every column. -/
theorem blk_x (c : Dev nD) (t : Fin cfg0.N) (y : S512x1024.Idx) (P : ℕ) (hP : P < 2048) (Q : ℕ) (hQ : Q < 1024)
    (eP : P = 512 * (t.val / 64) + (y 0).val) (eQ : Q = (y 1).val) :
    (iblk m c 0 t : Vec Ideal S512x1024 .bf16) y = argX m c (at2 P hP Q hQ) := by
  obtain ⟨e0, e1, -⟩ := idx_facts t
  unfold iblk
  rw [View.read_apply]
  show V m c main_v0 _ = _
  rw [V_x]
  refine congrArg _ (funext fun a => Fin.ext ?_)
  match a with
  | ⟨0, _⟩ => show win0_0.index t (0 : Fin 2) * 512 + 1 * (y 0).val = P; omega
  | ⟨1, _⟩ => show win0_0.index t (1 : Fin 2) * 1024 + 1 * (y 1).val = Q; omega

/-- The input weights' block: every row, the columns of tile (t / 8) % 8. -/
theorem blk_wi (c : Dev nD) (t : Fin cfg0.N) (y : S1024x512.Idx) (P : ℕ) (hP : P < 1024) (Q : ℕ) (hQ : Q < 4096)
    (eP : P = (y 0).val) (eQ : Q = 512 * (t.val / 8 % 8) + (y 1).val) :
    (iblk m c 1 t : Vec Ideal S1024x512 .bf16) y = argWi m c (at2 P hP Q hQ) := by
  obtain ⟨-, -, e0, e1, -⟩ := idx_facts t
  unfold iblk
  rw [View.read_apply]
  show V m c main_v1 _ = _
  rw [V_wi]
  refine congrArg _ (funext fun a => Fin.ext ?_)
  match a with
  | ⟨0, _⟩ => show win0_1.index t (0 : Fin 2) * 1024 + 1 * (y 0).val = P; omega
  | ⟨1, _⟩ => show win0_1.index t (1 : Fin 2) * 512 + 1 * (y 1).val = Q; omega

/-- The gate weights' block: every row, the columns of tile (t / 8) % 8. -/
theorem blk_wg (c : Dev nD) (t : Fin cfg0.N) (y : S1024x512.Idx) (P : ℕ) (hP : P < 1024) (Q : ℕ) (hQ : Q < 4096)
    (eP : P = (y 0).val) (eQ : Q = 512 * (t.val / 8 % 8) + (y 1).val) :
    (iblk m c 2 t : Vec Ideal S1024x512 .bf16) y = argWg m c (at2 P hP Q hQ) := by
  obtain ⟨-, -, -, -, e0, e1, -⟩ := idx_facts t
  unfold iblk
  rw [View.read_apply]
  show V m c main_v2 _ = _
  rw [V_wg]
  refine congrArg _ (funext fun a => Fin.ext ?_)
  match a with
  | ⟨0, _⟩ => show win0_2.index t (0 : Fin 2) * 1024 + 1 * (y 0).val = P; omega
  | ⟨1, _⟩ => show win0_2.index t (1 : Fin 2) * 512 + 1 * (y 1).val = Q; omega

/-- The reservoir weights' block: the rows of contraction block t % 8, the columns of tile (t / 8) % 8. -/
theorem blk_wr (c : Dev nD) (t : Fin cfg0.N) (y : S512x512.Idx) (P : ℕ) (hP : P < 4096) (Q : ℕ) (hQ : Q < 4096)
    (eP : P = 512 * (t.val % 8) + (y 0).val) (eQ : Q = 512 * (t.val / 8 % 8) + (y 1).val) :
    (iblk m c 3 t : Vec Ideal S512x512 .bf16) y = argWr m c (at2 P hP Q hQ) := by
  obtain ⟨-, -, -, -, -, -, e0, e1, -⟩ := idx_facts t
  unfold iblk
  rw [View.read_apply]
  show V m c main_v3 _ = _
  rw [V_wr]
  refine congrArg _ (funext fun a => Fin.ext ?_)
  match a with
  | ⟨0, _⟩ => show win0_3.index t (0 : Fin 2) * 512 + 1 * (y 0).val = P; omega
  | ⟨1, _⟩ => show win0_3.index t (1 : Fin 2) * 512 + 1 * (y 1).val = Q; omega

/-- The state's block for the product: the rows of tile t / 64, the columns of contraction block t % 8. -/
theorem blk_sk (c : Dev nD) (t : Fin cfg0.N) (y : S512x512.Idx) (P : ℕ) (hP : P < 2048) (Q : ℕ) (hQ : Q < 4096)
    (eP : P = 512 * (t.val / 64) + (y 0).val) (eQ : Q = 512 * (t.val % 8) + (y 1).val) :
    (iblk m c 4 t : Vec Ideal S512x512 .bf16) y = argS m c (at2 P hP Q hQ) := by
  obtain ⟨-, -, -, -, -, -, -, -, e0, e1, -⟩ := idx_facts t
  unfold iblk
  rw [View.read_apply]
  show V m c main_v4 _ = _
  rw [V_s]
  refine congrArg _ (funext fun a => Fin.ext ?_)
  match a with
  | ⟨0, _⟩ => show win0_4.index t (0 : Fin 2) * 512 + 1 * (y 0).val = P; omega
  | ⟨1, _⟩ => show win0_4.index t (1 : Fin 2) * 512 + 1 * (y 1).val = Q; omega

/-- The state's block for the update: the rows of tile t / 64, the columns of tile (t / 8) % 8. -/
theorem blk_s (c : Dev nD) (t : Fin cfg0.N) (y : S512x512.Idx) (P : ℕ) (hP : P < 2048) (Q : ℕ) (hQ : Q < 4096)
    (eP : P = 512 * (t.val / 64) + (y 0).val) (eQ : Q = 512 * (t.val / 8 % 8) + (y 1).val) :
    (iblk m c 5 t : Vec Ideal S512x512 .f32) y = argS m c (at2 P hP Q hQ) := by
  obtain ⟨-, -, -, -, -, -, -, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_5.index t (0 : Fin 2) * 512 + 1 * (y 0).val = P; omega
  | ⟨1, _⟩ => show win0_5.index t (1 : Fin 2) * 512 + 1 * (y 1).val = Q; omega

end Cert.Reservoir.Blocks

end
-- ==== Proof.Accumulate.lean ====
/-
  A long row-times-column sum walked block by block.

  Cut the contraction index of Σ_l L(P,l)·R(l,C) into blocks of 512. If two [512,512] blocks hold the entries of row P of L
  and of column C of R that belong to block k, their own row-times-column sum is the 512 terms of block k; added to the
  prefix of the first k·512 terms it is the prefix of the first (k+1)·512 terms, and from zero it is the first block's
  prefix. A block that holds a whole row of L and a whole column of R gives the whole sum at once.
-/
import proofs.«101820_j37572373905508_2_alg».proof.Proof.Spec

noncomputable section

namespace Cert.Reservoir

open Idealize.ShloMosaic Cert.ProductAt
open scoped BigOperators

/-- Block k of the long sum's terms is the product of the two blocks that hold them. -/
theorem block_terms {A K B : Nat} (L : Arr A K) (R : Arr K B) (bl : Arr 512 512) (br : Arr 512 512)
    (r : ℕ) (hr : r < 512) (c : ℕ) (hc : c < 512) (P : ℕ) (hP : P < A) (C : ℕ) (hC : C < B) (k : ℕ) (hk : (k + 1) * 512 ≤ K)
    (el : ∀ (l : ℕ) (hl : l < 512) (h : k * 512 + l < K), bl (at2 r hr l hl) = L (at2 P hP (k * 512 + l) h))
    (er : ∀ (l : ℕ) (hl : l < 512) (h : k * 512 + l < K), br (at2 l hl c hc) = R (at2 (k * 512 + l) h C hC)) :
    rowCol bl br r hr c hc = ∑ j : Fin 512, term L R P hP C hC (k * 512 + j.val) := by
  unfold rowCol
  refine Finset.sum_congr rfl fun j _ => ?_
  have hj : k * 512 + j.val < K := by have := j.isLt; omega
  unfold term
  rw [dif_pos hj, el j.val j.isLt hj, er j.val j.isLt hj]

/-- Blocks that hold a whole row of L and a whole column of R give the whole sum. -/
theorem full_terms {A K B a b : Nat} (L : Arr A K) (R : Arr K B) (bl : Arr a K) (br : Arr K b)
    (r : ℕ) (hr : r < a) (c : ℕ) (hc : c < b) (P : ℕ) (hP : P < A) (C : ℕ) (hC : C < B)
    (el : ∀ (l : ℕ) (hl : l < K), bl (at2 r hr l hl) = L (at2 P hP l hl))
    (er : ∀ (l : ℕ) (hl : l < K), br (at2 l hl c hc) = R (at2 l hl C hC)) :
    rowCol bl br r hr c hc = rowCol L R P hP C hC := by
  unfold rowCol
  exact Finset.sum_congr rfl fun l _ => by rw [el l.val l.isLt, er l.val l.isLt]

/-- The specification's new state at the entry (P,C). -/
theorem newState_at2 (x : Arr 2048 1024) (s : Arr 2048 4096) (wi : Arr 1024 4096) (wr : Arr 4096 4096) (wg : Arr 1024 4096)
    (P : ℕ) (hP : P < 2048) (C : ℕ) (hC : C < 4096) :
    newState x s wi wr wg (at2 P hP C hC)
      = cell (s (at2 P hP C hC)) (rowCol x wi P hP C hC + rowCol s wr P hP C hC) (rowCol x wg P hP C hC) := rfl

end Cert.Reservoir

end
-- ==== Proof.Carried.lean ====
/-
  What the three carried scratch buffers hold after every grid point.

  At position t — row tile t / 64, column tile (t / 8) % 8, contraction block t % 8 — and for the entry (P,C) of the
  arguments under entry y of the tile (P = 512·(t / 64) + y₀, C = 512·((t / 8) % 8) + y₁):
    the accumulator holds the first (t % 8 + 1)·512 terms of row P of the state times column C of the reservoir weights;
    the input contribution holds row P of the inputs times column C of the input weights;
    the gate holds the logistic function of row P of the inputs times column C of the gate weights.
  By induction on the position: at the first contraction block the three are stored afresh; at a later block the
  accumulator gains that block's 512 terms and the other two are left as they were, and the tile has not moved.
-/
import proofs.«101820_j37572373905508_2_alg».proof.Proof.Pieces
import proofs.«101820_j37572373905508_2_alg».proof.Proof.Payload
import proofs.«101820_j37572373905508_2_alg».proof.Proof.Blocks
import proofs.«101820_j37572373905508_2_alg».proof.Proof.Accumulate

noncomputable section

namespace Cert.Reservoir.Carried

open Idealize.ShloMosaic Idealize.ShloMosaic.TcCoe Idealize.SL.Sem Cert.ProductAt Cert.Reservoir
open Cert.KernelIdeal Cert.KernelIdeal.Gen Cert.KernelIdeal.Found Cert.Reservoir.Blocks Cert.Reservoir.Body
open scoped BigOperators

variable (m : (ℓ : Loc nD τ sig) → Buf (Elt Ideal) ℓ)

/-- What the accumulator, the input contribution and the gate hold after position n. -/
def Holds (c : Dev nD) (n : ℕ) (acc inp g : Vec Ideal S512x512 .f32) : Prop :=
  ∀ (y : S512x512.Idx) (P : ℕ) (hP : P < 2048) (C : ℕ) (hC : C < 4096),
    P = 512 * (n / 64) + (y 0).val → C = 512 * (n / 8 % 8) + (y 1).val →
      acc y = ∑ l ∈ Finset.range ((n % 8 + 1) * 512), term (argS m c) (argWr m c) P hP C hC l
      ∧ inp y = rowCol (argX m c) (argWi m c) P hP C hC
      ∧ g y = Ideal.logistic (rowCol (argX m c) (argWg m c) P hP C hC)

/-- The product of the position's state block and reservoir-weight block at y is block k = t % 8 of the long sum's terms. -/
theorem state_weights_block (c : Dev nD) (t : Fin cfg0.N) (y : S512x512.Idx) (P : ℕ) (hP : P < 2048) (C : ℕ) (hC : C < 4096)
    (k : ℕ) (ek : t.val % 8 = k) (eP : P = 512 * (t.val / 64) + (y 0).val) (eC : C = 512 * (t.val / 8 % 8) + (y 1).val) :
    rowCol (A := 512) (K := 512) (B := 512) (iblk m c 4 t) (iblk m c 3 t) (y 0).val (ValueIdx.idx2_lt0 y) (y 1).val (ValueIdx.idx2_lt1 y)
      = ∑ j : Fin 512, term (argS m c) (argWr m c) P hP C hC (k * 512 + j.val) :=
  block_terms (argS m c) (argWr m c) (iblk m c 4 t) (iblk m c 3 t) (y 0).val (ValueIdx.idx2_lt0 y) (y 1).val (ValueIdx.idx2_lt1 y)
    P hP C hC k (by omega)
    (fun l hl h => blk_sk m c t (at2 (y 0).val (ValueIdx.idx2_lt0 y) l hl) P hP (k * 512 + l) h eP (by show k * 512 + l = 512 * (t.val % 8) + l; omega))
    (fun l hl h => blk_wr m c t (at2 l hl (y 1).val (ValueIdx.idx2_lt1 y)) (k * 512 + l) h C hC (by show k * 512 + l = 512 * (t.val % 8) + l; omega) eC)

/-- The product of the position's input block and a weight block (input weights or gate weights) is the whole sum. -/
theorem inputs_weights_full (c : Dev nD) (t : Fin cfg0.N) (y : S512x512.Idx) (P : ℕ) (hP : P < 2048) (C : ℕ) (hC : C < 4096)
    (eP : P = 512 * (t.val / 64) + (y 0).val) (eC : C = 512 * (t.val / 8 % 8) + (y 1).val) :
    rowCol (A := 512) (K := 1024) (B := 512) (iblk m c 0 t) (iblk m c 1 t) (y 0).val (ValueIdx.idx2_lt0 y) (y 1).val (ValueIdx.idx2_lt1 y)
        = rowCol (argX m c) (argWi m c) P hP C hC
    ∧ rowCol (A := 512) (K := 1024) (B := 512) (iblk m c 0 t) (iblk m c 2 t) (y 0).val (ValueIdx.idx2_lt0 y) (y 1).val (ValueIdx.idx2_lt1 y)
        = rowCol (argX m c) (argWg m c) P hP C hC :=
  ⟨full_terms (argX m c) (argWi m c) (iblk m c 0 t) (iblk m c 1 t) (y 0).val (ValueIdx.idx2_lt0 y) (y 1).val (ValueIdx.idx2_lt1 y) P hP C hC
      (fun l hl => blk_x m c t (at2 (y 0).val (ValueIdx.idx2_lt0 y) l hl) P hP l hl eP rfl)
      (fun l hl => blk_wi m c t (at2 l hl (y 1).val (ValueIdx.idx2_lt1 y)) l hl C hC rfl eC),
   full_terms (argX m c) (argWg m c) (iblk m c 0 t) (iblk m c 2 t) (y 0).val (ValueIdx.idx2_lt0 y) (y 1).val (ValueIdx.idx2_lt1 y) P hP C hC
      (fun l hl => blk_x m c t (at2 (y 0).val (ValueIdx.idx2_lt0 y) l hl) P hP l hl eP rfl)
      (fun l hl => blk_wg m c t (at2 l hl (y 1).val (ValueIdx.idx2_lt1 y)) l hl C hC rfl eC)⟩

/-- A later contraction block: the accumulator gains the block's terms; the input contribution and the gate, and the tile, stay. -/
theorem later (c : Dev nD) (t : Fin cfg0.N) (h0 : ¬t.val % 8 = 0) (acc inp g : Vec Ideal S512x512 .f32)
    (hprev : Holds m c (t.val - 1) acc inp g) :
    Holds m c t.val (k0_pay4 (F := Ideal) acc (iblk m c 4 t) (iblk m c 3 t)) inp g := by
  intro y P hP C hC eP eC
  have hN : t.val < 256 := lt_of_lt_of_eq t.isLt N_0
  obtain ⟨a, b, d⟩ := hprev y P hP C hC (by omega) (by omega)
  refine ⟨?_, b, d⟩
  have hk : (t.val - 1) % 8 + 1 = t.val % 8 := by omega
  rw [acc_at acc (iblk m c 4 t) (iblk m c 3 t) y, a, state_weights_block m c t y P hP C hC (t.val % 8) rfl eP eC, hk]
  exact (LibPrefixSum.prefix_block _ (t.val % 8) 512).symm

/-- The first contraction block of a tile: the three are stored afresh. -/
theorem first (c : Dev nD) (t : Fin cfg0.N) (h0 : t.val % 8 = 0) (h1 : ¬t.val % 8 = 7) :
    Holds m c t.val (outsAt0 m c t.val t.isLt).2.2.1 (outsAt0 m c t.val t.isLt).2.2.2.1 (outsAt0 m c t.val t.isLt).2.2.2.2 := by
  rw [outsAt0_A m c t h0 h1]
  dsimp only
  intro y P hP C hC eP eC
  obtain ⟨fi, fg⟩ := inputs_weights_full m c t y P hP C hC eP eC
  refine ⟨?_, ?_, ?_⟩
  · rw [acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t) (iblk m c 2 t) (iblk m c 3 t) (iblk m c 4 t) (iblk m c 5 t),
      acc_at (k0_pay1 (F := Ideal)) (iblk m c 4 t) (iblk m c 3 t) y, zero_at,
      state_weights_block m c t y P hP C hC 0 h0 eP eC, h0]
    exact (LibPrefixSum.prefix_first _ 512).symm
  · rw [inp_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t) (iblk m c 2 t) (iblk m c 3 t) (iblk m c 4 t) (iblk m c 5 t),
      inp_at (iblk m c 0 t) (iblk m c 1 t) y]
    exact fi
  · rw [gate_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t) (iblk m c 2 t) (iblk m c 3 t) (iblk m c 4 t) (iblk m c 5 t),
      gate_at (iblk m c 0 t) (iblk m c 2 t) y]
    exact congrArg Ideal.logistic fg

/-- After every position the three scratch buffers hold what is stated. -/
theorem holds (c : Dev nD) : ∀ (n : ℕ) (h : n < cfg0.N),
    Holds m c n (outsAt0 m c n h).2.2.1 (outsAt0 m c n h).2.2.2.1 (outsAt0 m c n h).2.2.2.2 := by
  intro n
  induction n with
  | zero => intro h; exact first m c ⟨0, h⟩ rfl (by show ¬(0 : ℕ) % 8 = 7; decide)
  | succ n ih =>
    intro h
    have ihn := ih (Nat.lt_of_succ_lt h)
    by_cases h0 : (n + 1) % 8 = 0
    · exact first m c ⟨n + 1, h⟩ h0 (by show ¬(n + 1) % 8 = 7; omega)
    · by_cases h1 : (n + 1) % 8 = 7
      · have key := later m c ⟨n + 1, h⟩ h0 _ _ _ ihn
        rw [outsAt0_C m c ⟨n + 1, h⟩ h0 h1]
        dsimp only
        rw [acc_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c ((n + 1) - 1) (Nat.lt_of_le_of_lt (Nat.sub_le _ _) h)).2.2.1 (outsAt0 m c ((n + 1) - 1) (Nat.lt_of_le_of_lt (Nat.sub_le _ _) h)).2.2.2.1 (outsAt0 m c ((n + 1) - 1) (Nat.lt_of_le_of_lt (Nat.sub_le _ _) h)).2.2.2.2]
        exact key
      · have key := later m c ⟨n + 1, h⟩ h0 _ _ _ ihn
        rw [outsAt0_B m c ⟨n + 1, h⟩ h0 h1]
        dsimp only
        rw [acc_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c ((n + 1) - 1) (Nat.lt_of_le_of_lt (Nat.sub_le _ _) h)).2.2.1 (outsAt0 m c ((n + 1) - 1) (Nat.lt_of_le_of_lt (Nat.sub_le _ _) h)).2.2.2.1 (outsAt0 m c ((n + 1) - 1) (Nat.lt_of_le_of_lt (Nat.sub_le _ _) h)).2.2.2.2]
        exact key

end Cert.Reservoir.Carried

end
-- ==== Proof.Final.lean ====
/-
  The two result arrays after the run are the specification's new state and spikes.

  The outputs' blocks are written back only after the last contraction block of a tile (positions t with t % 8 = 7). There the
  body has stored, from the state block s, the input contribution, the accumulator — which after this last step holds all
  8·512 = 4096 terms of the state's row times the reservoir weights' column — and the gate, the value
  (a·s + b·tanh (inputs·Wi + state·Wr))·logistic (inputs·Wg) at the entry of the arguments under each entry of the tile,
  and its threshold. The 4 × 8 tiles cover the [2048,4096] arrays: entry (R,C) lies in the tile written back at position
  64·(R / 512) + 8·(C / 512) + 7.
-/
import proofs.«101820_j37572373905508_2_alg».proof.Proof.Carried
import proofs.«101820_j37572373905508_2_alg».proof.Proof.Gen.KernelIdeal.Value

noncomputable section

namespace Cert.Reservoir.Final

open Idealize.ShloMosaic Idealize.ShloMosaic.TcCoe Idealize.SL.Sem Cert.ProductAt Cert.Reservoir
open Cert.KernelIdeal Cert.KernelIdeal.Gen Cert.KernelIdeal.Found Cert.Reservoir.Blocks Cert.Reservoir.Body
open Cert.Reservoir.Carried
open Idealize.ShloMosaic.Pipeline (Dat)

variable (m : (ℓ : Loc nD τ sig) → Buf (Elt Ideal) ℓ) (ρ : Dev nD → PrngReg)

/-- The specification's new state of the argument arrays. -/
abbrev stateOf (c : Dev nD) : Arr 2048 4096 := newState (argX m c) (argS m c) (argWi m c) (argWr m c) (argWg m c)
/-- The specification's spikes of the argument arrays. -/
abbrev spikesOf (c : Dev nD) : Arr 2048 4096 := spikes (argX m c) (argS m c) (argWi m c) (argWr m c) (argWg m c)

/-- At the last contraction block the stored new state at y is the specification's at the entry under y: the accumulator's
    last step completes the 4096 terms of the state's product. -/
theorem state_entry (c : Dev nD) (t : Fin cfg0.N) (h0 : ¬t.val % 8 = 0) (h1 : t.val % 8 = 7)
    (acc inp g : Vec Ideal S512x512 .f32) (hprev : Holds m c (t.val - 1) acc inp g)
    (y : S512x512.Idx) (P : ℕ) (hP : P < 2048) (C : ℕ) (hC : C < 4096)
    (eP : P = 512 * (t.val / 64) + (y 0).val) (eC : C = 512 * (t.val / 8 % 8) + (y 1).val) :
    k0_pay5 (F := Ideal) (iblk m c 5 t) inp (k0_pay4 (F := Ideal) acc (iblk m c 4 t) (iblk m c 3 t)) g y
      = stateOf m c (at2 P hP C hC) := by
  obtain ⟨a, b, d⟩ := later m c t h0 acc inp g hprev y P hP C hC eP eC
  rw [state_at (iblk m c 5 t) inp (k0_pay4 (F := Ideal) acc (iblk m c 4 t) (iblk m c 3 t)) g y, a, b, d,
    blk_s m c t y P hP C hC eP eC, h1]
  show _ = newState (argX m c) (argS m c) (argWi m c) (argWr m c) (argWg m c) (at2 P hP C hC)
  rw [newState_at2, rowCol_eq_prefix (argS m c) (argWr m c) P hP C hC]
  rfl

/-- The entry of a [2048,4096] array under entry y of the tile of position t. -/
theorem tile_entry (t : Fin cfg0.N) (y : S512x512.Idx) (P : ℕ) (hP : P < 2048) (C : ℕ) (hC : C < 4096)
    (eP : P = 512 * (t.val / 64) + (y 0).val) (eC : C = 512 * (t.val / 8 % 8) + (y 1).val) :
    ((cfg0.win 7).blk t).view.emb y = at2 P hP C hC ∧ ((cfg0.win 6).blk t).view.emb y = at2 P hP C hC := by
  obtain ⟨-, -, -, -, -, -, -, -, -, -, -, -, e60, e61, e70, e71⟩ := idx_facts t
  refine ⟨funext fun a => Fin.ext ?_, funext fun a => Fin.ext ?_⟩
  · match a with
    | ⟨0, _⟩ => show win0_7.index t (0 : Fin 2) * 512 + 1 * (y 0).val = P; omega
    | ⟨1, _⟩ => show win0_7.index t (1 : Fin 2) * 512 + 1 * (y 1).val = C; omega
  · match a with
    | ⟨0, _⟩ => show win0_6.index t (0 : Fin 2) * 512 + 1 * (y 0).val = P; omega
    | ⟨1, _⟩ => show win0_6.index t (1 : Fin 2) * 512 + 1 * (y 1).val = C; omega

/-- What a write-back of the new-state window writes is the tile of the specification's new state. -/
theorem state_flushed (c : Dev nD) (t : Fin cfg0.N) (hf : (cfg0.win 7).flush t = true) :
    (dats m 0 c).flushed 7 t = ((cfg0.win 7).blk t).view.read (Elt Ideal) (stateOf m c) := by
  have h1 : t.val % 8 = 7 := (flush0_7 t).mp hf
  have h0 : ¬t.val % 8 = 0 := by omega
  have hN : t.val < 256 := lt_of_lt_of_eq t.isLt N_0
  rw [Cert.KernelIdeal.Value.flushed7_C m c t h0 h1,
    state_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  funext y
  have hy0 : (y 0).val < 512 := ValueIdx.idx2_lt0 y
  have hy1 : (y 1).val < 512 := ValueIdx.idx2_lt1 y
  have hP : 512 * (t.val / 64) + (y 0).val < 2048 := by omega
  have hC : 512 * (t.val / 8 % 8) + (y 1).val < 4096 := by omega
  rw [View.read_apply, (tile_entry t y _ hP _ hC rfl rfl).1]
  exact state_entry m c t h0 h1 _ _ _ (holds m c (t.val - 1) _) y _ hP _ hC rfl rfl

/-- What a write-back of the spike window writes is the tile of the specification's spikes. -/
theorem spikes_flushed (c : Dev nD) (t : Fin cfg0.N) (hf : (cfg0.win 6).flush t = true) :
    (dats m 0 c).flushed 6 t = ((cfg0.win 6).blk t).view.read (Elt Ideal) (spikesOf m c) := by
  have h1 : t.val % 8 = 7 := (flush0_6 t).mp hf
  have h0 : ¬t.val % 8 = 0 := by omega
  have hN : t.val < 256 := lt_of_lt_of_eq t.isLt N_0
  rw [Cert.KernelIdeal.Value.flushed6_C m c t h0 h1,
    spikes_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  funext y
  have hy0 : (y 0).val < 512 := ValueIdx.idx2_lt0 y
  have hy1 : (y 1).val < 512 := ValueIdx.idx2_lt1 y
  have hP : 512 * (t.val / 64) + (y 0).val < 2048 := by omega
  have hC : 512 * (t.val / 8 % 8) + (y 1).val < 4096 := by omega
  rw [View.read_apply, (tile_entry t y _ hP _ hC rfl rfl).2]
  exact congrArg spike (state_entry m c t h0 h1 _ _ _ (holds m c (t.val - 1) _) y _ hP _ hC rfl rfl)

/-- An entry is in the tile of position t iff each coordinate is in the tile's range on its axis. -/
theorem mem_tile7 (t : Fin cfg0.N) (i : S2048x4096.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v5_1).slice (win0_7.rect t)).set ↔ _
  rw [View.set_slice_whole, Rect.mem_set_unit]
  exact Iff.rfl
theorem mem_tile6 (t : Fin cfg0.N) (i : S2048x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v5_0).slice (win0_6.rect t)).set ↔ _
  rw [View.set_slice_whole, Rect.mem_set_unit]
  exact Iff.rfl

/-- Every entry lies in a tile that is written back: the one at position 64·(R / 512) + 8·(C / 512) + 7. -/
theorem covered (i : S2048x4096.Idx) :
    (∃ t : Fin cfg0.N, (cfg0.win 7).flush t = true ∧ i ∈ ((cfg0.win 7).blk t).view.set)
    ∧ (∃ t : Fin cfg0.N, (cfg0.win 6).flush t = true ∧ i ∈ ((cfg0.win 6).blk t).view.set) := by
  have hi0 : (i 0).val < 2048 := ValueIdx.idx2_lt0 i
  have hi1 : (i 1).val < 4096 := ValueIdx.idx2_lt1 i
  have hb : 64 * ((i 0).val / 512) + 8 * ((i 1).val / 512) + 7 < cfg0.N := by rw [show cfg0.N = 256 from N_0]; omega
  obtain ⟨-, -, -, -, -, -, -, -, -, -, -, -, e60, e61, e70, e71⟩ := idx_facts ⟨64 * ((i 0).val / 512) + 8 * ((i 1).val / 512) + 7, hb⟩
  have hv : (⟨64 * ((i 0).val / 512) + 8 * ((i 1).val / 512) + 7, hb⟩ : Fin cfg0.N).val = 64 * ((i 0).val / 512) + 8 * ((i 1).val / 512) + 7 := rfl
  rw [hv] at e60 e61 e70 e71
  refine ⟨⟨⟨_, hb⟩, (flush0_7 _).mpr (by rw [hv]; omega), ?_⟩, ⟨⟨_, hb⟩, (flush0_6 _).mpr (by rw [hv]; omega), ?_⟩⟩
  · rw [mem_tile7]
    intro a
    match a with
    | ⟨0, _⟩ => show win0_7.index _ (0 : Fin 2) * 512 ≤ (i 0).val ∧ (i 0).val < win0_7.index _ (0 : Fin 2) * 512 + 512; rw [e70]; omega
    | ⟨1, _⟩ => show win0_7.index _ (1 : Fin 2) * 512 ≤ (i 1).val ∧ (i 1).val < win0_7.index _ (1 : Fin 2) * 512 + 512; rw [e71]; omega
  · rw [mem_tile6]
    intro a
    match a with
    | ⟨0, _⟩ => show win0_6.index _ (0 : Fin 2) * 512 ≤ (i 0).val ∧ (i 0).val < win0_6.index _ (0 : Fin 2) * 512 + 512; rw [e60]; omega
    | ⟨1, _⟩ => show win0_6.index _ (1 : Fin 2) * 512 ≤ (i 1).val ∧ (i 1).val < win0_6.index _ (1 : Fin 2) * 512 + 512; rw [e61]; omega

/-- After the run the new-state array is the specification's new state … -/
theorem state_final (c : Dev nD) : (dats m 0 c).arrAt 7 cfg0.N = stateOf m c :=
  (dats m 0 c).arrAt_eq_of_cover 7 (stateOf m c) (state_flushed m c) (fun i => (covered i).1)

/-- … and the spike array its spikes. -/
theorem spikes_final (c : Dev nD) : (dats m 0 c).arrAt 6 cfg0.N = spikesOf m c :=
  (dats m 0 c).arrAt_eq_of_cover 6 (spikesOf m c) (spikes_flushed m c) (fun i => (covered i).2)

/-- The kernel's run: every weakly fair execution ends with the two results at the specification's values of the
    arguments, the arguments unchanged. -/
theorem run : θ_run defs (onTc (τ := τ) (main (F := Ideal))) ⟨m, fun _ => 0, ρ⟩ fun r => ∀ c : Dev nD,
      r.2.mem ((c : Thread nD τ).loc main_v5_0) = spikesOf m c
      ∧ r.2.mem ((c : Thread nD τ).loc main_v5_1) = stateOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (spikes_final m c), (h c).2.1.trans (state_final m c), (h c).2.2⟩)
    (Cert.KernelIdeal.Value.run_blocks m ρ)

end Cert.Reservoir.Final

end
-- ==== Proof.lean ====
/-
  A gated leaky reservoir step computed tile by tile, against the same step written with whole-array operations.

  Both programs take inputs x [2048,1024], a state s [2048,4096] and weights Wi [1024,4096], Wr [4096,4096], Wg [1024,4096]
  (a sixth argument is not read) and return the spikes and the new state
      s' = (a·s + b·tanh (x·Wi + s·Wr)) · logistic (x·Wg),   spikes = 1 where s' > 1/2, else 0,
  a and b the single-precision numbers nearest 9/10 and 1/10 in both.
  The kernel works on [512,512] tiles of the result over a 4 × 8 × 8 grid whose innermost axis walks the 4096-long
  contraction of s·Wr in eight blocks of 512: at the first block it stores x·Wi and the gate for the tile and resets an
  accumulator, at every block it adds the block's partial product to the accumulator, and at the last block it
  forms s' and the spikes and writes the tile back. On the extended reals narrowing to bf16 is the identity, the
  logistic function is 1 / (1 + exp (−·)) as the reference spells it, and a sum taken in eight blocks from zero is
  the whole sum, by associativity and commutativity alone: no entry needs to be finite.
  Proof/Spec.lean states the function; Proof/RefIsSpec.lean reads the reference as it; Proof/Pieces.lean, Payload.lean,
  Blocks.lean, Accumulate.lean and Carried.lean follow the kernel's scratch buffers over the grid; Proof/Final.lean reads
  the result arrays. The idealization rewrote nothing, so the kernel's idealization is the kernel's own text.
-/
import proofs.«101820_j37572373905508_2_alg».proof.Defs
import proofs.«101820_j37572373905508_2_alg».proof.Proof.Gen.Kernel
import proofs.«101820_j37572373905508_2_alg».proof.Proof.Gen.Kernel.Skeleton
import proofs.«101820_j37572373905508_2_alg».proof.Proof.Gen.Kernel.Launch
import proofs.«101820_j37572373905508_2_alg».proof.Proof.Gen.Kernel.Points
import proofs.«101820_j37572373905508_2_alg».proof.Proof.Gen.Kernel.Frame
import proofs.«101820_j37572373905508_2_alg».proof.Proof.Gen.KernelIdeal
import proofs.«101820_j37572373905508_2_alg».proof.Proof.Gen.KernelIdeal.Skeleton
import proofs.«101820_j37572373905508_2_alg».proof.Proof.Gen.KernelIdeal.Launch
import proofs.«101820_j37572373905508_2_alg».proof.Proof.Gen.KernelIdeal.Points
import proofs.«101820_j37572373905508_2_alg».proof.Proof.Gen.KernelIdeal.Frame
import proofs.«101820_j37572373905508_2_alg».proof.Proof.Gen.ReferenceIdeal
import proofs.«101820_j37572373905508_2_alg».proof.Proof.Gen.Pre_finite_inputs
import proofs.«101820_j37572373905508_2_alg».proof.Proof.Gen.KernelIdeal.Value
import proofs.«101820_j37572373905508_2_alg».proof.Proof.Gen.ReferenceIdeal.Run
import proofs.«101820_j37572373905508_2_alg».proof.Proof.Gen.ReferenceIdeal.Read
import proofs.«101820_j37572373905508_2_alg».proof.Proof.RefIsSpec
import proofs.«101820_j37572373905508_2_alg».proof.Proof.Final
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals both programs end with the spikes and the new state of the specification, of arguments that agree. -/
theorem algebraic : Cert.algebraic_KernelIdeal_ReferenceIdeal := by
  intro m ρ m' ρ' _ hagree
  refine ⟨fun c => Cert.Reservoir.Final.spikesOf m c, fun c => Cert.Reservoir.Final.stateOf m c,
    Cert.Reservoir.Final.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v21_eq, Cert.Reservoir.Ref.spikes_eq, (hagree c).1, (hagree c).2.2.1,
      (hagree c).2.2.2.1, (hagree c).2.2.2.2.1, (hagree c).2.2.2.2.2]
  · rw [(h c).2.1, Cert.ReferenceIdeal.Read.val_main_v16_eq, Cert.Reservoir.Ref.newState_eq, (hagree c).1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
